-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  IdealRules.sign_bit.Statement Cert.KernelIdeal.S512x1024 .f32
  ∧ IdealRules.sign_bit.Statement Cert.KernelIdeal.S512x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024x1024 : Shape := ⟨2, ![1024, 1024]⟩
abbrev S1024 : Shape := ⟨1, ![1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_v82 : IVec S_ 1) (main_v84 : IVec S1024 1) : IVec S_ 1 :=
  let main_c_33 : IVec S_ 1 := constantI S_ 1 1#1
  let main_v85 : IVec S_ 1 := (fun x v => Host.reduce IntOp.andi x v reducesTo_S1024_S_d0 h_S_) main_v84 main_c_33
  let main_v86 : IVec S_ 1 := andi main_v82 main_v85
  main_v86

def fn_part4 {F : FTy → Type} [FloatOps F] (main_arg10 : FVec F S1024 .f32) (main_arg14 : FVec F S1024 .f32) (main_arg15 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_cst_30 : FVec F S_ .f32 := constant S_ .f32 0x00000000#32
  let main_v79 : FVec F S1024 .f32 := broadcastInDim S1024 ![] bcast_S_S1024 main_cst_30
  let main_v80 : IVec S1024 1 := cmpf .oge main_arg10 main_v79
  let main_c_31 : IVec S_ 1 := constantI S_ 1 1#1
  let main_v81 : IVec S_ 1 := (fun x v => Host.reduce IntOp.andi x v reducesTo_S1024_S_d0 h_S_) main_v80 main_c_31
  let main_v82 : IVec S_ 1 := andi main_v78 main_v81
  let main_cst_32 : FVec F S_ .f32 := constant S_ .f32 0x00000000#32
  let main_v83 : FVec F S1024 .f32 := broadcastInDim S1024 ![] bcast_S_S1024 main_cst_32
  let main_v84 : IVec S1024 1 := cmpf .oge main_arg14 main_v83
  fn_part5 (F := F) main_v82 main_v84

def fn_part3 {F : FTy → Type} [FloatOps F] (main_arg10 : FVec F S1024 .f32) (main_arg11 : FVec F S1024 .f32) (main_arg12 : FVec F S1024 .f32) (main_arg13 : FVec F S1024 .f32) (main_arg14 : FVec F S1024 .f32) (main_arg15 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg10 main_arg14 main_arg15 main_v63 main_v67

def fn_part2 {F : FTy → Type} [FloatOps F] (main_arg7 : FVec F S1024 .f32) (main_arg8 : FVec F S1024 .f32) (main_arg9 : FVec F S1024 .f32) (main_arg10 : FVec F S1024 .f32) (main_arg11 : FVec F S1024 .f32) (main_arg12 : FVec F S1024 .f32) (main_arg13 : FVec F S1024 .f32) (main_arg14 : FVec F S1024 .f32) (main_arg15 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg10 main_arg11 main_arg12 main_arg13 main_arg14 main_arg15 main_v48 main_v49 main_v50

def fn_part1 {F : FTy → Type} [FloatOps F] (main_arg4 : FVec F S1024 .f32) (main_arg5 : FVec F S1024x1024 .f32) (main_arg6 : FVec F S1024 .f32) (main_arg7 : FVec F S1024 .f32) (main_arg8 : FVec F S1024 .f32) (main_arg9 : FVec F S1024 .f32) (main_arg10 : FVec F S1024 .f32) (main_arg11 : FVec F S1024 .f32) (main_arg12 : FVec F S1024 .f32) (main_arg13 : FVec F S1024 .f32) (main_arg14 : FVec F S1024 .f32) (main_arg15 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S65536x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024 .f32) (main_arg8 : FVec F S1024 .f32) (main_arg9 : FVec F S1024 .f32) (main_arg10 : FVec F S1024 .f32) (main_arg11 : FVec F S1024 .f32) (main_arg12 : FVec F S1024 .f32) (main_arg13 : FVec F S1024 .f32) (main_arg14 : FVec F S1024 .f32) (main_arg15 : FVec F S1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S65536x1024 : Shape := ⟨2, ![65536, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S512x1024 : Shape := ⟨2, ![512, 1024]⟩

abbrev nBuf : Space → Nat
  | .hbm => 47
  | .vmem => 15
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .f32⟩
  | .hbm, ⟨23, _⟩ => ⟨S1024x1024, .bf16⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S1024, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [BitOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S1024x1024_S1024x1024_1_0 : S1024x1024.Transposes [1, 0] S1024x1024
  bitsLt_bf16_f32 : FTy.bits .bf16 < FTy.bits .f32
  bcast_S_S1024 : S_.BroadcastsInDim S1024 (![] : Fin 0 → Fin S1024.rank)
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S65536x1024.size a
  hwx0_0 : ∀ i : grid0.Coords, EltTy.bits .f32 = 32 ∨ (Rect.block (s := S65536x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x1024.size a ≤ S65536x1024.size a
  hwx0_12 : ∀ i : grid0.Coords, EltTy.bits .f32 = 32 ∨ (Rect.block (s := S65536x1024) S512x1024.size (cc0_transform_12 i) (hinb0_12 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v27) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v28) S512x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 106
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S65536x1024, .f32⟩
  | .hbm, ⟨28, _⟩ => ⟨S65536x1024, .f32⟩
  | .hbm, ⟨29, _⟩ => ⟨S1x1024, .f32⟩
  | .hbm, ⟨30, _⟩ => ⟨S65536x1024, .f32⟩
  | .hbm, ⟨31, _⟩ => ⟨S65536x1024, .f32⟩
  | .hbm, ⟨32, _⟩ => ⟨S1x1024, .f32⟩
  | .hbm, ⟨33, _⟩ => ⟨S65536x1024, .f32⟩
  | .hbm, ⟨34, _⟩ => ⟨S65536x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S65536x1024, .f32⟩
  | .hbm, ⟨39, _⟩ => ⟨S65536x1024, .f32⟩
  | .hbm, ⟨40, _⟩ => ⟨S_, .f32⟩
  | .hbm, ⟨41, _⟩ => ⟨S65536x1024, .f32⟩
  | .hbm, ⟨42, _⟩ => ⟨S65536x1024, .f32⟩
  | .hbm, ⟨43, _⟩ => ⟨S65536x1024, .f32⟩
  | .hbm, ⟨44, _⟩ => ⟨S65536x1024, .f32⟩
  | .hbm, ⟨45, _⟩ => ⟨S65536x1024, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S1024x1024, .f32⟩
  | .hbm, ⟨50, _⟩ => ⟨S1024x1024, .f32⟩
  | .hbm, ⟨51, _⟩ => ⟨S_, .f32⟩
  | .hbm, ⟨52, _⟩ => ⟨S1024x1024, .f32⟩
  | .hbm, ⟨53, _⟩ => ⟨S1024x1024, .f32⟩
  | .hbm, ⟨54, _⟩ => ⟨S1024x1024, .f32⟩
  | .hbm, ⟨55, _⟩ => ⟨S1024x1024, .f32⟩
  | .hbm, ⟨56, _⟩ => ⟨S1024x1024, .f32⟩
  | .hbm, ⟨57, _⟩ => ⟨S1024x1024, .f32⟩
  | .hbm, ⟨58, _⟩ => ⟨S65536x1024, .f32⟩
  | .hbm, ⟨59, _⟩ => ⟨S1x1024, .f32⟩
  | .hbm, ⟨60, _⟩ => ⟨S65536x1024, .f32⟩
  | .hbm, ⟨61, _⟩ => ⟨S65536x1024, .f32⟩
  | .hbm, ⟨62, _⟩ => ⟨S_, .f32⟩
  | .hbm, ⟨63, _⟩ => ⟨S1024, .f32⟩
  | .hbm, ⟨64, _⟩ => ⟨S1024, .f32⟩
  | .hbm, ⟨65, _⟩ => ⟨S1024, .f32⟩
  | .hbm, ⟨66, _⟩ => ⟨S1024, .f32⟩
  | .hbm, ⟨67, _⟩ => ⟨S1x1024, .f32⟩
  | .hbm, ⟨68, _⟩ => ⟨S65536x1024, .f32⟩
  | .hbm, ⟨69, _⟩ => ⟨S65536x1024, .f32⟩
  | .hbm, ⟨70, _⟩ => ⟨S1x1024, .f32⟩
  | .hbm, ⟨71, _⟩ => ⟨S65536x1024, .f32⟩
  | .hbm, ⟨72, _⟩ => ⟨S65536x1024, .f32⟩
  | .hbm, ⟨73, _⟩ => ⟨S1x1024, .f32⟩
  | .hbm, ⟨74, _⟩ => ⟨S65536x1024, .f32⟩
  | .hbm, ⟨75, _⟩ => ⟨S65536x1024, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S65536x1024, .f32⟩
  | .hbm, ⟨80, _⟩ => ⟨S65536x1024, .f32⟩
  | .hbm, ⟨81, _⟩ => ⟨S_, .f32⟩
  | .hbm, ⟨82, _⟩ => ⟨S65536x1024, .f32⟩
  | .hbm, ⟨83, _⟩ => ⟨S65536x1024, .f32⟩
  | .hbm, ⟨84, _⟩ => ⟨S65536x1024, .f32⟩
  | .hbm, ⟨85, _⟩ => ⟨S65536x1024, .f32⟩
  | .hbm, ⟨86, _⟩ => ⟨S65536x1024, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S1024x1024, .f32⟩
  | .hbm, ⟨91, _⟩ => ⟨S1024x1024, .f32⟩
  | .hbm, ⟨92, _⟩ => ⟨S_, .f32⟩
  | .hbm, ⟨93, _⟩ => ⟨S1024x1024, .f32⟩
  | .hbm, ⟨94, _⟩ => ⟨S1024x1024, .f32⟩
  | .hbm, ⟨95, _⟩ => ⟨S1024x1024, .f32⟩
  | .hbm, ⟨96, _⟩ => ⟨S1024x1024, .f32⟩
  | .hbm, ⟨97, _⟩ => ⟨S1024x1024, .f32⟩
  | .hbm, ⟨98, _⟩ => ⟨S1024x1024, .f32⟩
  | .hbm, ⟨99, _⟩ => ⟨S65536x1024, .f32⟩
  | .hbm, ⟨100, _⟩ => ⟨S1x1024, .f32⟩
  | .hbm, ⟨101, _⟩ => ⟨S65536x1024, .f32⟩
  | .hbm, ⟨102, _⟩ => ⟨S65536x1024, .f32⟩
  | .hbm, ⟨103, _⟩ => ⟨S1x1024, .f32⟩
  | .hbm, ⟨104, _⟩ => ⟨S65536x1024, .f32⟩
  | .hbm, ⟨105, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_0 : Ref sig .tc := ⟨.hbm, 35, rfl⟩
abbrev main_cst_1 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_2 : Ref sig .tc := ⟨.hbm, 46, rfl⟩
abbrev main_cst_3 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_4 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_5 : Ref sig .tc := ⟨.hbm, 76, rfl⟩
abbrev main_cst_6 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_7 : Ref sig .tc := ⟨.hbm, 87, rfl⟩
abbrev main_cst_8 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S1024 : S_.BroadcastsInDim S1024 (![] : Fin 0 → Fin S1024.rank)
  bcast_S_S65536x1024 : S_.BroadcastsInDim S65536x1024 (![] : Fin 0 → Fin S65536x1024.rank)
  bcast_S_S1024x1024 : S_.BroadcastsInDim S1024x1024 (![] : Fin 0 → Fin S1024x1024.rank)
  dot_S65536x1024_S1024x1024_S65536x1024_1_0_0_1_n_n_wf : DotDims.WF S65536x1024 S1024x1024 S65536x1024 [1] [0] [0] [1] [] []

variable [Facts₀]

def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf

class Facts : Prop extends Facts₀ where

variable [Facts]
-- ==== Proof.LibSteSign.lean ====
/-
  Extended-real facts about a sign activation and the affine map in front of it.

  * `Ideal.sign` takes the three real values -1, 0, 1, so it is never infinite.
  * A sign spelt as "where |v| > 0 take ±1 by the test v < 0, else v itself" is `Ideal.sign v`, at every
    extended real (the infinities included).
  * The straight-through form `c + (sign v - c)` with `c` the value clipped to [-1, 1] is `sign v`:
    the clipped value is a real, so the sum cancels exactly.
  * For REAL a, m, s, b the two spellings of an affine map agree: (a - m)·s + b = a·s + (b - m·s).
    (On the extended reals this needs finiteness: with s = ⊤ the two sides differ.)
  * A finite sum of products of reals is the real sum, and the reciprocal square root of a positive real is a real.
-/
import Idealize.ShloMosaic.PureOps.Ideal
import Idealize.ShloMosaic.PureOps.Ideal.Laws
import Idealize.ShloMosaic.PureOps.IdealRules

noncomputable section

namespace Cert.LibSteSign

open Idealize.ShloMosaic

/-- The f32 word of 1.0 denotes 1. -/
theorem ofBits_one : Ideal.ofBits .f32 0x3F800000#32 = 1 := IdealRules.sign_bit.ideal_onePat .f32

/-- The f32 word of -1.0 denotes -1. -/
theorem ofBits_neg_one : Ideal.ofBits .f32 0xBF800000#32 = -1 := IdealRules.sign_bit.ideal_negOnePat .f32

/-- The sign of an extended real is one of the REALS -1, 0, 1. -/
theorem sign_eq_coe (v : EReal) : ∃ r : ℝ, Ideal.sign v = (r : EReal) := by
  induction v using EReal.rec with
  | bot => exact ⟨-1, by simp⟩
  | coe r => exact ⟨(SignType.sign r : ℝ), rfl⟩
  | top => exact ⟨1, by simp⟩

/-- A sign spelt by two comparisons and two selections — where `|v| > 0` the value `-1` or `1` by `v < 0`, elsewhere
    `v` itself (which is then `0`) — is the sign. -/
theorem select_abs_eq_sign (v : EReal) :
    Scalar.select (Ideal.cmp .ogt (max v (-v)) 0) (Scalar.select (Ideal.cmp .olt v 0) (-1) 1) v = Ideal.sign v := by
  induction v using EReal.rec with
  | bot => simp [Scalar.select, Ideal.cmp]
  | top => simp [Scalar.select, Ideal.cmp]
  | coe r =>
    rcases lt_trichotomy r 0 with h | h | h
    · have h1 : ((r : ℝ) : EReal) < 0 := by exact_mod_cast h
      have h2 : (0 : EReal) < max (r : EReal) (-(r : EReal)) := lt_max_of_lt_right (by
        rw [← EReal.coe_neg]; exact_mod_cast neg_pos.2 h)
      simp [Scalar.select, Ideal.cmp, h1, h2, sign_neg h]
    · subst h
      have h0 : Ideal.sign (0 : EReal) = 0 := by
        show Ideal.sign ((0 : ℝ) : EReal) = 0
        rw [Ideal.sign_coe]; simp
      simp [Scalar.select, Ideal.cmp, h0]
    · have h1 : ¬ ((r : ℝ) : EReal) < 0 := not_lt.2 (by exact_mod_cast h.le)
      have h2 : (0 : EReal) < max (r : EReal) (-(r : EReal)) := lt_max_of_lt_left (by exact_mod_cast h)
      simp [Scalar.select, Ideal.cmp, h1, h2, sign_pos h]

/-- A value clipped to `[-1, 1]` is a real. -/
theorem clip_eq_coe (v : EReal) : ∃ c : ℝ, min 1 (max (-1) v) = (c : EReal) := by
  have h1 : min 1 (max (-1 : EReal) v) ≤ 1 := min_le_left _ _
  have h2 : (-1 : EReal) ≤ min 1 (max (-1) v) := le_min (by
    rw [← EReal.coe_one, ← EReal.coe_neg]; exact EReal.coe_le_coe_iff.2 (by norm_num)) (le_max_left _ _)
  refine ⟨(min 1 (max (-1) v)).toReal, (EReal.coe_toReal ?_ ?_).symm⟩
  · exact ne_top_of_le_ne_top (by exact_mod_cast EReal.coe_ne_top 1) h1
  · exact ne_bot_of_le_ne_bot (by rw [← EReal.coe_one, ← EReal.coe_neg]; exact EReal.coe_ne_bot _) h2

/-- The straight-through sign: the clipped value plus (sign minus the clipped value) is the sign. -/
theorem ste_eq_sign (v : EReal) :
    min 1 (max (-1) v) + (Ideal.sign v - min 1 (max (-1) v)) = Ideal.sign v := by
  obtain ⟨s, hs⟩ := sign_eq_coe v
  obtain ⟨c, hc⟩ := clip_eq_coe v
  rw [hs, hc]
  norm_cast
  ring

/-- Folding a normalisation into one scale and one shift, over the reals. -/
theorem affine_fold (a m s b : ℝ) :
    ((a : EReal) - (m : EReal)) * (s : EReal) + (b : EReal) = (a : EReal) * (s : EReal) + ((b : EReal) - (m : EReal) * (s : EReal)) := by
  norm_cast
  ring

/-- A finite sum of products of reals, taken in the extended reals, is the real sum. -/
theorem sum_coe_mul_coe {ι : Type*} (s : Finset ι) (f g : ι → ℝ) :
    ∑ k ∈ s, ((f k : EReal) * (g k : EReal)) = ((∑ k ∈ s, f k * g k : ℝ) : EReal) := by
  classical
  induction s using Finset.induction_on with
  | empty => simp
  | insert a s ha ih => rw [Finset.sum_insert ha, Finset.sum_insert ha, ih, ← EReal.coe_mul, ← EReal.coe_add]

/-- The reciprocal square root of a positive real is a real. -/
theorem rsqrt_coe_of_pos (r : ℝ) (h : 0 < r) : Ideal.rsqrt (r : EReal) = (((Real.sqrt r)⁻¹ : ℝ) : EReal) := by
  rw [Ideal.rsqrt_coe, if_neg (not_lt.2 h.le), if_neg h.ne']

/-- The f32 word 0x3727C5AC (the float nearest 1e-5) denotes a positive real. -/
theorem ofBits_eps_pos : ∃ e : ℝ, 0 < e ∧ Ideal.ofBits .f32 0x3727C5AC#32 = (e : EReal) := by
  refine ⟨(1 : ℝ) * ((2 ^ 23 + 2606508 : ℕ) : ℝ) * (2 : ℝ) ^ ((110 : ℤ) - (2 ^ (8 - 1) - 1) - (23 : ℕ)), by positivity, ?_⟩
  simp [Ideal.ofBits, Ideal.ieee, -EReal.coe_mul]

end Cert.LibSteSign

end
-- ==== Proof.Spec.lean ====
/-
  The function both programs compute, one output ROW at a time.

  A row `xr` of the input goes through three dense layers `a ↦ (∑ₖ a k · w k e) + b e`. After the first and the second
  layer comes a per-channel affine map and then the sign; after the third a per-channel scale. One program applies
  the affine map as `a · s + sh` with a precomputed shift `sh = β - μ · s` (`kernelRow`), the other as
  `(a - μ) · s + β` (`referenceRow`). Over the reals these are one map (`LibSteSign.affine_fold`); over the extended
  reals the identity needs every quantity in it to be finite, which is what the hypotheses of
  `referenceRow_eq_kernelRow` say: the first layer's inputs, weights and bias are reals, so is each affine map's
  data, and the second layer's bias; the later layers' inputs are signs, hence reals by themselves.
-/
import Idealize.ShloMosaic.Lib.ValueIdx
import proofs.«141624_j12206297055253_1_alg».proof.Proof.LibSteSign

noncomputable section

namespace Cert.Mlp

open Idealize.ShloMosaic Idealize.ShloMosaic.ValueIdx Cert.LibSteSign

/-- One dense layer on one row: `(∑ₖ a k · w k e) + b e`, the weights indexed (input channel, output channel). -/
def dense (a : Fin 1024 → EReal) (w : Fin 1024 → Fin 1024 → EReal) (b : Fin 1024 → EReal) (e : Fin 1024) : EReal :=
  (∑ k : Fin 1024, a k * w k e) + b e

/-- The row as the kernel computes it: each affine map as scale `s` and precomputed shift `sh`. -/
def kernelRow (xr : Fin 1024 → EReal) (w0 w1 w2 : Fin 1024 → Fin 1024 → EReal)
    (b0 b1 b2 s0 sh0 s1 sh1 osc : Fin 1024 → EReal) (e : Fin 1024) : EReal :=
  dense (fun j => Ideal.sign (dense (fun i => Ideal.sign (dense xr w0 b0 i * s0 i + sh0 i)) w1 b1 j * s1 j + sh1 j)) w2 b2 e
    * osc e

/-- The row as the reference computes it: each affine map as `(a - μ) · s + β`. -/
def referenceRow (xr : Fin 1024 → EReal) (w0 w1 w2 : Fin 1024 → Fin 1024 → EReal)
    (b0 b1 b2 s0 μ0 β0 s1 μ1 β1 osc : Fin 1024 → EReal) (e : Fin 1024) : EReal :=
  dense (fun j => Ideal.sign ((dense (fun i => Ideal.sign ((dense xr w0 b0 i - μ0 i) * s0 i + β0 i)) w1 b1 j - μ1 j) * s1 j + β1 j))
    w2 b2 e * osc e

/-- A dense layer of real data is real. -/
theorem dense_coe (a : Fin 1024 → ℝ) (w : Fin 1024 → Fin 1024 → ℝ) (b : Fin 1024 → ℝ) (e : Fin 1024) :
    dense (fun k => (a k : EReal)) (fun k e => (w k e : EReal)) (fun e => (b e : EReal)) e
      = (((∑ k : Fin 1024, a k * w k e) + b e : ℝ) : EReal) := by
  unfold dense
  rw [sum_coe_mul_coe, ← EReal.coe_add]

/-- With finite data in the two affine maps and the two layers before them, the two rows are one function. -/
theorem referenceRow_eq_kernelRow (xr : Fin 1024 → EReal) (w0 w1 w2 : Fin 1024 → Fin 1024 → EReal)
    (b0 b1 b2 s0 μ0 β0 s1 μ1 β1 osc : Fin 1024 → EReal)
    (hx : ∀ k, ∃ r : ℝ, xr k = r) (hw0 : ∀ k e, ∃ r : ℝ, w0 k e = r) (hb0 : ∀ e, ∃ r : ℝ, b0 e = r)
    (hs0 : ∀ e, ∃ r : ℝ, s0 e = r) (hμ0 : ∀ e, ∃ r : ℝ, μ0 e = r) (hβ0 : ∀ e, ∃ r : ℝ, β0 e = r)
    (hw1 : ∀ k e, ∃ r : ℝ, w1 k e = r) (hb1 : ∀ e, ∃ r : ℝ, b1 e = r)
    (hs1 : ∀ e, ∃ r : ℝ, s1 e = r) (hμ1 : ∀ e, ∃ r : ℝ, μ1 e = r) (hβ1 : ∀ e, ∃ r : ℝ, β1 e = r) :
    referenceRow xr w0 w1 w2 b0 b1 b2 s0 μ0 β0 s1 μ1 β1 osc
      = kernelRow xr w0 w1 w2 b0 b1 b2 s0 (fun e => β0 e - μ0 e * s0 e) s1 (fun e => β1 e - μ1 e * s1 e) osc := by
  choose xr' hx using hx
  choose w0' hw0 using hw0
  choose b0' hb0 using hb0
  choose s0' hs0 using hs0
  choose μ0' hμ0 using hμ0
  choose β0' hβ0 using hβ0
  choose w1' hw1 using hw1
  choose b1' hb1 using hb1
  choose s1' hs1 using hs1
  choose μ1' hμ1 using hμ1
  choose β1' hβ1 using hβ1
  obtain rfl : xr = fun k => (xr' k : EReal) := funext hx
  obtain rfl : w0 = fun k e => (w0' k e : EReal) := funext fun k => funext (hw0 k)
  obtain rfl : b0 = fun e => (b0' e : EReal) := funext hb0
  obtain rfl : w1 = fun k e => (w1' k e : EReal) := funext fun k => funext (hw1 k)
  obtain rfl : b1 = fun e => (b1' e : EReal) := funext hb1
  -- the first affine map, at each channel
  have h0 : ∀ i, (dense (fun k => (xr' k : EReal)) (fun k e => (w0' k e : EReal)) (fun e => (b0' e : EReal)) i - μ0 i) * s0 i + β0 i
      = dense (fun k => (xr' k : EReal)) (fun k e => (w0' k e : EReal)) (fun e => (b0' e : EReal)) i * s0 i + (β0 i - μ0 i * s0 i) := by
    intro i
    rw [dense_coe, hμ0, hs0, hβ0]
    exact affine_fold _ _ _ _
  -- the first sign is a real
  choose c0 hc0 using fun i => sign_eq_coe (dense (fun k => (xr' k : EReal)) (fun k e => (w0' k e : EReal)) (fun e => (b0' e : EReal)) i * s0 i + (β0 i - μ0 i * s0 i))
  -- the second affine map, at each channel
  have h1 : ∀ j, (dense (fun i => (c0 i : EReal)) (fun k e => (w1' k e : EReal)) (fun e => (b1' e : EReal)) j - μ1 j) * s1 j + β1 j
      = dense (fun i => (c0 i : EReal)) (fun k e => (w1' k e : EReal)) (fun e => (b1' e : EReal)) j * s1 j + (β1 j - μ1 j * s1 j) := by
    intro j
    rw [dense_coe, hμ1, hs1, hβ1]
    exact affine_fold _ _ _ _
  funext e
  unfold referenceRow kernelRow
  simp only [h0, hc0, h1]

/-- A normalisation's scale at channel e: `γ e · rsqrt (σ² e + ε)`, ε the f32 nearest 1e-5. -/
def scale (g v : (⟨1, ![1024]⟩ : Shape).Idx → EReal) (e : Fin 1024) : EReal :=
  g (ix1 e) * Ideal.rsqrt (v (ix1 e) + Ideal.ofBits .f32 0x3727C5AC#32)

/-- With a real γ and a real σ² ≥ 0 the scale is a real: σ² + ε is positive, so its reciprocal root is finite. -/
theorem scale_eq_coe (g v : (⟨1, ![1024]⟩ : Shape).Idx → EReal) (e : Fin 1024) (hg : ∃ r : ℝ, g (ix1 e) = (r : EReal))
    (hv : ∃ r : ℝ, v (ix1 e) = (r : EReal)) (h0 : 0 ≤ v (ix1 e)) : ∃ r : ℝ, scale g v e = (r : EReal) := by
  obtain ⟨g', hg⟩ := hg
  obtain ⟨v', hv⟩ := hv
  obtain ⟨ε, hε, hεq⟩ := ofBits_eps_pos
  have hv0 : 0 ≤ v' := by rw [hv] at h0; exact_mod_cast h0
  unfold scale
  rw [hg, hv, hεq, ← EReal.coe_add, rsqrt_coe_of_pos _ (add_pos_of_nonneg_of_pos hv0 hε), ← EReal.coe_mul]
  exact ⟨_, rfl⟩

/-- THE SPECIFICATION: the output array as one function of the sixteen argument arrays. Entry (p, e) is the kernel's
    row function of row p of `x`; a weight matrix `W` is read transposed, `w k e = W (e, k)`, and binarised by the
    sign in the second and third layers; each normalisation enters as its scale and the shift `β - μ · scale`. -/
def G (x : (⟨2, ![65536, 1024]⟩ : Shape).Idx → EReal) (W0 : (⟨2, ![1024, 1024]⟩ : Shape).Idx → EReal)
    (b0 : (⟨1, ![1024]⟩ : Shape).Idx → EReal) (W1 : (⟨2, ![1024, 1024]⟩ : Shape).Idx → EReal)
    (b1 : (⟨1, ![1024]⟩ : Shape).Idx → EReal) (W2 : (⟨2, ![1024, 1024]⟩ : Shape).Idx → EReal)
    (b2 g0 β0 μ0 v0 g1 β1 μ1 v1 osc : (⟨1, ![1024]⟩ : Shape).Idx → EReal) :
    (⟨2, ![65536, 1024]⟩ : Shape).Idx → EReal := fun i =>
  kernelRow (fun k => x (ix2 (i 0) k)) (fun k e => W0 (ix2 e k)) (fun k e => Ideal.sign (W1 (ix2 e k)))
    (fun k e => Ideal.sign (W2 (ix2 e k))) (fun e => b0 (ix1 e)) (fun e => b1 (ix1 e)) (fun e => b2 (ix1 e))
    (scale g0 v0) (fun e => β0 (ix1 e) - μ0 (ix1 e) * scale g0 v0 e)
    (scale g1 v1) (fun e => β1 (ix1 e) - μ1 (ix1 e) * scale g1 v1 e) (fun e => osc (ix1 e)) (i 1)

end Cert.Mlp

end
-- ==== Proof.LibPlainDot.lean ====
/-
  A plain matrix product read at an index, at the extended reals.

  For a rank-2 product `[M, K] · [K, N] → [M, N]` (one contracted axis: the left operand's columns against the right
  operand's rows, no batch axis) accumulated into the zero block, the entry at `(p, e)` is the finite sum over the
  contracted coordinate `k` of `lhs (p, k) · rhs (k, e)`. The product's dimension record enters only through four
  coordinate facts about its operand index maps (each is a one-line computation for a literal record), so the lemma
  serves any such record at any extents.
-/
import Idealize.ShloMosaic.Lib.ValueIdx
import Idealize.ShloMosaic.PureOps.Ideal.Laws

noncomputable section

namespace Cert.LibPlainDot

open Idealize.ShloMosaic Idealize.ShloMosaic.ValueIdx

/-- `[M, K] · [K, N]` into the zero accumulator, at `(p, e)`: `∑ₖ lhs (p, k) · rhs (k, e)`. The hypotheses say that the
    record contracts ONE axis of extent `K`, that the left operand is read at (output row, contracted coordinate) and the
    right operand at (contracted coordinate, output column). -/
theorem matmul_zero_apply {M K N : ℕ} {φ₁ φ₂ : FTy}
    (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![M, K]⟩ φ₁) (rhs : FVec Ideal ⟨2, ![K, N]⟩ φ₂) (p : Fin M) (e : Fin N) :
    matmul D none lhs rhs (constant (F := Ideal) ⟨2, ![M, N]⟩ .f32 0x00000000#32) (ix2 p e)
      = ∑ k : Fin K, lhs (ix2 p k) * rhs (ix2 k e) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p e) ((contrEquiv1 D K hr hs).symm k) = ix2 p k := funext fun a => Fin.ext (by
    match a with
    | ⟨0, _⟩ => exact hl0 _ _
    | ⟨1, _⟩ => exact (hl1 _ _).trans hk)
  have er : D.rhsIdx (ix2 p e) ((contrEquiv1 D K hr hs).symm k) = ix2 k e := funext fun a => Fin.ext (by
    match a with
    | ⟨0, _⟩ => exact (hr0 _ _).trans hk
    | ⟨1, _⟩ => exact hr1 _ _)
  rw [el, er]

end Cert.LibPlainDot

end
-- ==== Proof.KernelPayload.lean ====
/-
  The kernel body's value, read at an index (p, e) of its 512 × 1024 block, is `Mlp.kernelRow` of row p of the input
  block.

  The body is three times "matrix product into a zero accumulator, plus the bias row, (times the scale row plus the
  shift row, then the sign)": a bias, scale or shift arrives as a 1 × 1024 block and is broadcast down the 512 rows,
  so at (p, e) it is read at (0, e); the product at (p, e) is `∑ₖ a (p, k) · w (k, e)` (`LibPlainDot`); the sign is
  spelt with two comparisons and two selections (`LibSteSign.select_abs_eq_sign`). Changes of float format are the
  identity on the extended reals.
-/
import proofs.«141624_j12206297055253_1_alg».proof.Proof.Gen.KernelIdeal.Skeleton
import proofs.«141624_j12206297055253_1_alg».proof.Proof.Spec
import proofs.«141624_j12206297055253_1_alg».proof.Proof.LibPlainDot
import Idealize.ShloMosaic.Lib.Pipeline.Value
import Idealize.ShloMosaic.Lib.ValueLayout

noncomputable section

namespace Cert.KernelIdeal.KValue

open Cert.KernelIdeal Cert.KernelIdeal.Gen Idealize.ShloMosaic Idealize.ShloMosaic.ValueIdx Cert.Mlp Cert.LibSteSign

/-- A 1 × 1024 row block, broadcast down the block's 512 rows. -/
def rowB (v : FVec Ideal S1x1024 .f32) : FVec Ideal S512x1024 .f32 :=
  broadcastTo S512x1024 (shapeCast S1x1024 v shapeCasts_S1x1024_S1x1024) broadcasts_S1x1024_S512x1024

/-- The block's matrix product with a stored weight block, into the zero accumulator. -/
def prodB (a : FVec Ideal S512x1024 .bf16) (w : FVec Ideal S1024x1024 .bf16) : FVec Ideal S512x1024 .f32 :=
  matmul dot_S512x1024_S1024x1024_S512x1024_1_0_0_1_n_n none a (shapeCast S1024x1024 w shapeCasts_S1024x1024_S1024x1024)
    (constant S512x1024 .f32 0x00000000#32)

/-- The body's sign: where `|v| > 0` the value ±1 by `v < 0`, elsewhere `v`; narrowed to bf16. -/
def signB (v : FVec Ideal S512x1024 .f32) : FVec Ideal S512x1024 .bf16 :=
  truncf .bf16 (select (cmpf .ogt (absf v) (broadcast S512x1024 (Scalar.ofBits .f32 0x00000000#32)))
    (select (cmpf .olt v (constant S512x1024 .f32 0x00000000#32)) (constant S512x1024 .f32 0xBF800000#32)
      (constant S512x1024 .f32 0x3F800000#32)) v) bitsLt_bf16_f32

/-- The row broadcast reads, at (p, e), the row at (0, e). -/
theorem rowB_apply (v : FVec Ideal S1x1024 .f32) (p : Fin 512) (e : Fin 1024) :
    rowB v (ix2 p e) = v (ix2 (0 : Fin 1) e) := by
  unfold rowB
  rw [shapeCast_self]
  exact broadcastTo_1b_ab_apply v _ p e

/-- The block's matrix product at (p, e): the sum over the contracted channel. -/
theorem prodB_apply (a : FVec Ideal S512x1024 .bf16) (w : FVec Ideal S1024x1024 .bf16) (p : Fin 512) (e : Fin 1024) :
    prodB a w (ix2 p e) = ∑ k : Fin 1024, a (ix2 p k) * w (ix2 k e) := by
  unfold prodB
  rw [shapeCast_self]
  refine Cert.LibPlainDot.matmul_zero_apply dot_S512x1024_S1024x1024_S512x1024_1_0_0_1_n_n rfl rfl ?_ ?_ ?_ ?_ a w p e
  · intro i q
    unfold DotDims.lhsIdx
    rw [dif_neg (show ¬(0 : Fin S512x1024.rank) ∈ dot_S512x1024_S1024x1024_S512x1024_1_0_0_1_n_n.lhsBatch by decide),
      dif_pos (show (0 : Fin S512x1024.rank) ∈ dot_S512x1024_S1024x1024_S512x1024_1_0_0_1_n_n.lhsNonContracting by decide)]
    rfl
  · intro i q
    exact dot_S512x1024_S1024x1024_S512x1024_1_0_0_1_n_n.lhsIdx_val_of_single rfl i q
  · intro i q
    exact dot_S512x1024_S1024x1024_S512x1024_1_0_0_1_n_n.rhsIdx_val_of_single rfl i q
  · intro i q
    unfold DotDims.rhsIdx
    rw [dif_neg (show ¬(1 : Fin S1024x1024.rank) ∈ dot_S512x1024_S1024x1024_S512x1024_1_0_0_1_n_n.rhsBatch by decide),
      dif_pos (show (1 : Fin S1024x1024.rank) ∈ dot_S512x1024_S1024x1024_S512x1024_1_0_0_1_n_n.rhsNonContracting by decide)]
    rfl

/-- The body's sign is the sign. -/
theorem signB_apply (v : FVec Ideal S512x1024 .f32) (i : S512x1024.Idx) : signB v i = Ideal.sign (v i) := by
  show Scalar.select (Ideal.cmp .ogt (max (v i) (-(v i))) (Ideal.ofBits .f32 0x00000000#32))
      (Scalar.select (Ideal.cmp .olt (v i) (Ideal.ofBits .f32 0x00000000#32)) (Ideal.ofBits .f32 0xBF800000#32)
        (Ideal.ofBits .f32 0x3F800000#32)) (v i) = _
  rw [Ideal.ofBits_zero_f32, ofBits_one, ofBits_neg_one]
  exact select_abs_eq_sign _

/-- The body's value, spelt with the three pieces above: three times product, bias row, (scale row, shift row, sign). -/
theorem payload_eq (x0 : Vec Ideal S512x1024 .f32) (x1 x2 x3 : Vec Ideal S1024x1024 .bf16)
    (x4 x5 x6 x7 x8 x9 x10 x11 : Vec Ideal S1x1024 .f32) :
    k0_pay1 (k0_pay2 x0 x1 x4 x7 x8 x2 x5 x9) x10 x3 x6 x11
      = mulf (addf (prodB (signB (addf (mulf (addf (prodB (signB (addf (mulf (addf (prodB (truncf .bf16 x0 bitsLt_bf16_f32) x1)
          (rowB x4)) (rowB x7)) (rowB x8))) x2) (rowB x5)) (rowB x9)) (rowB x10))) x3) (rowB x6)) (rowB x11) := rfl

/-- THE BODY'S VALUE at (p, e): the kernel's row function of row p of the input block, the weight blocks read as
    stored (input channel, output channel), each row block at (0, ·). -/
theorem payload_apply (x0 : Vec Ideal S512x1024 .f32) (x1 x2 x3 : Vec Ideal S1024x1024 .bf16)
    (x4 x5 x6 x7 x8 x9 x10 x11 : Vec Ideal S1x1024 .f32) (p : Fin 512) (e : Fin 1024) :
    k0_pay1 (k0_pay2 x0 x1 x4 x7 x8 x2 x5 x9) x10 x3 x6 x11 (ix2 p e)
      = kernelRow (fun k => x0 (ix2 p k)) (fun k e => x1 (ix2 k e)) (fun k e => x2 (ix2 k e)) (fun k e => x3 (ix2 k e))
          (fun e => x4 (ix2 (0 : Fin 1) e)) (fun e => x5 (ix2 (0 : Fin 1) e)) (fun e => x6 (ix2 (0 : Fin 1) e))
          (fun e => x7 (ix2 (0 : Fin 1) e)) (fun e => x8 (ix2 (0 : Fin 1) e)) (fun e => x9 (ix2 (0 : Fin 1) e))
          (fun e => x10 (ix2 (0 : Fin 1) e)) (fun e => x11 (ix2 (0 : Fin 1) e)) e := by
  rw [payload_eq]
  simp only [mulf_apply, addf_apply, prodB_apply, rowB_apply, signB_apply, truncf_apply]
  rfl

end Cert.KernelIdeal.KValue

end
-- ==== Proof.KernelBlocks.lean ====
/-
  From the blocks to the array: after the kernel's run the output array is the specification `Mlp.G` of the arguments.

  The grid has 128 points; point t stages rows [512 t, 512 t + 512) of `x` and of the output, and the same whole block
  of every other operand at every point. Those other operands are made by the host before the launch: the three weight
  matrices transposed (the second and third through the sign first), each bias and the output scale recast as a
  1 × 1024 row, and each normalisation's scale `γ · rsqrt (σ² + ε)` and shift `β - μ · scale`, recast likewise. So the
  block point t writes back is, at (p, e), `Mlp.kernelRow` of row 512 t + p of `x` — the block of `G` at t — and the
  128 output blocks tile the array.
-/
import proofs.«141624_j12206297055253_1_alg».proof.Proof.Gen.KernelIdeal.Value
import proofs.«141624_j12206297055253_1_alg».proof.Proof.KernelPayload

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo Cert.Mlp Cert.LibSteSign
open Idealize.ShloMosaic.Pipeline (Dat)

variable (m : (ℓ : Loc nD τ sig) → Buf (Elt Ideal) ℓ) (ρ : Dev nD → PrngReg)

/-! ## The arguments at launch, as plain arrays of extended reals -/

abbrev A0 (c : Dev nD) : FVec Ideal S65536x1024 .f32 := m ((c : Thread nD τ).loc main_arg0)
abbrev A1 (c : Dev nD) : FVec Ideal S1024x1024 .f32 := m ((c : Thread nD τ).loc main_arg1)
abbrev A2 (c : Dev nD) : FVec Ideal S1024 .f32 := m ((c : Thread nD τ).loc main_arg2)
abbrev A3 (c : Dev nD) : FVec Ideal S1024x1024 .f32 := m ((c : Thread nD τ).loc main_arg3)
abbrev A4 (c : Dev nD) : FVec Ideal S1024 .f32 := m ((c : Thread nD τ).loc main_arg4)
abbrev A5 (c : Dev nD) : FVec Ideal S1024x1024 .f32 := m ((c : Thread nD τ).loc main_arg5)
abbrev A6 (c : Dev nD) : FVec Ideal S1024 .f32 := m ((c : Thread nD τ).loc main_arg6)
abbrev A7 (c : Dev nD) : FVec Ideal S1024 .f32 := m ((c : Thread nD τ).loc main_arg7)
abbrev A8 (c : Dev nD) : FVec Ideal S1024 .f32 := m ((c : Thread nD τ).loc main_arg8)
abbrev A9 (c : Dev nD) : FVec Ideal S1024 .f32 := m ((c : Thread nD τ).loc main_arg9)
abbrev A10 (c : Dev nD) : FVec Ideal S1024 .f32 := m ((c : Thread nD τ).loc main_arg10)
abbrev A11 (c : Dev nD) : FVec Ideal S1024 .f32 := m ((c : Thread nD τ).loc main_arg11)
abbrev A12 (c : Dev nD) : FVec Ideal S1024 .f32 := m ((c : Thread nD τ).loc main_arg12)
abbrev A13 (c : Dev nD) : FVec Ideal S1024 .f32 := m ((c : Thread nD τ).loc main_arg13)
abbrev A14 (c : Dev nD) : FVec Ideal S1024 .f32 := m ((c : Thread nD τ).loc main_arg14)
abbrev A15 (c : Dev nD) : FVec Ideal S1024 .f32 := m ((c : Thread nD τ).loc main_arg15)

/-! ## The operands the host makes, as the region finds them -/

theorem V_v1 (c : Dev nD) : @Eq (FVec Ideal S1024x1024 .bf16) (V m c main_v1)
    (truncf .bf16 (transpose S1024x1024 [1, 0] (A1 m c) transposes_S1024x1024_S1024x1024_1_0) bitsLt_bf16_f32) := by
  dsimp only [Gen.V, Gen.hostOps0]; after_results_simp <;> rfl

theorem V_v4 (c : Dev nD) : @Eq (FVec Ideal S1024x1024 .bf16) (V m c main_v4)
    (truncf .bf16 (transpose S1024x1024 [1, 0] (Host.sign (A3 m c)) transposes_S1024x1024_S1024x1024_1_0) bitsLt_bf16_f32) := by
  dsimp only [Gen.V, Gen.hostOps0]; after_results_simp <;> rfl

theorem V_v7 (c : Dev nD) : @Eq (FVec Ideal S1024x1024 .bf16) (V m c main_v7)
    (truncf .bf16 (transpose S1024x1024 [1, 0] (Host.sign (A5 m c)) transposes_S1024x1024_S1024x1024_1_0) bitsLt_bf16_f32) := by
  dsimp only [Gen.V, Gen.hostOps0]; after_results_simp <;> rfl

theorem V_v20 (c : Dev nD) : @Eq (FVec Ideal S1x1024 .f32) (V m c main_v20)
    (shapeCast S1x1024 (A2 m c) shapeCasts_S1024_S1x1024) := by
  dsimp only [Gen.V, Gen.hostOps0]; after_results_simp <;> rfl

theorem V_v21 (c : Dev nD) : @Eq (FVec Ideal S1x1024 .f32) (V m c main_v21)
    (shapeCast S1x1024 (A4 m c) shapeCasts_S1024_S1x1024) := by
  dsimp only [Gen.V, Gen.hostOps0]; after_results_simp <;> rfl

theorem V_v22 (c : Dev nD) : @Eq (FVec Ideal S1x1024 .f32) (V m c main_v22)
    (shapeCast S1x1024 (A6 m c) shapeCasts_S1024_S1x1024) := by
  dsimp only [Gen.V, Gen.hostOps0]; after_results_simp <;> rfl

theorem V_v27 (c : Dev nD) : @Eq (FVec Ideal S1x1024 .f32) (V m c main_v27)
    (shapeCast S1x1024 (A15 m c) shapeCasts_S1024_S1x1024) := by
  dsimp only [Gen.V, Gen.hostOps0]; after_results_simp <;> rfl

set_option maxHeartbeats 2000000 in
theorem V_v23 (c : Dev nD) : @Eq (FVec Ideal S1x1024 .f32) (V m c main_v23)
    (shapeCast S1x1024 (mulf (A7 m c) (Host.rsqrt (addf (A10 m c)
        (broadcastInDim S1024 ![] bcast_S_S1024 (constant S_ .f32 0x3727C5AC#32))))) shapeCasts_S1024_S1x1024) := by
  dsimp only [Gen.V, Gen.hostOps0]; after_results_simp <;> rfl

set_option maxHeartbeats 2000000 in
theorem V_v24 (c : Dev nD) : @Eq (FVec Ideal S1x1024 .f32) (V m c main_v24)
    (shapeCast S1x1024 (subf (A8 m c) (mulf (A9 m c) (mulf (A7 m c) (Host.rsqrt (addf (A10 m c)
        (broadcastInDim S1024 ![] bcast_S_S1024 (constant S_ .f32 0x3727C5AC#32))))))) shapeCasts_S1024_S1x1024) := by
  dsimp only [Gen.V, Gen.hostOps0]; after_results_simp <;> rfl

set_option maxHeartbeats 2000000 in
theorem V_v25 (c : Dev nD) : @Eq (FVec Ideal S1x1024 .f32) (V m c main_v25)
    (shapeCast S1x1024 (mulf (A11 m c) (Host.rsqrt (addf (A14 m c)
        (broadcastInDim S1024 ![] bcast_S_S1024 (constant S_ .f32 0x3727C5AC#32))))) shapeCasts_S1024_S1x1024) := by
  dsimp only [Gen.V, Gen.hostOps0]; after_results_simp <;> rfl

set_option maxHeartbeats 2000000 in
theorem V_v26 (c : Dev nD) : @Eq (FVec Ideal S1x1024 .f32) (V m c main_v26)
    (shapeCast S1x1024 (subf (A12 m c) (mulf (A13 m c) (mulf (A11 m c) (Host.rsqrt (addf (A14 m c)
        (broadcastInDim S1024 ![] bcast_S_S1024 (constant S_ .f32 0x3727C5AC#32))))))) shapeCasts_S1024_S1x1024) := by
  dsimp only [Gen.V, Gen.hostOps0]; after_results_simp <;> rfl

/-- The first layer's weights as staged: `W0` transposed. -/
theorem w0_apply (c : Dev nD) (k e : Fin 1024) : (V m c main_v1 : FVec Ideal S1024x1024 .bf16) (ix2 k e) = (A1 m c) (ix2 e k) :=
  (congrFun (V_v1 m c) (ix2 k e)).trans (transpose_ix2_apply _ _ k e)

/-- The second layer's weights as staged: the sign of `W1`, transposed. -/
theorem w1_apply (c : Dev nD) (k e : Fin 1024) :
    (V m c main_v4 : FVec Ideal S1024x1024 .bf16) (ix2 k e) = Ideal.sign ((A3 m c) (ix2 e k)) :=
  (congrFun (V_v4 m c) (ix2 k e)).trans
    ((transpose_ix2_apply (Host.sign (A3 m c)) transposes_S1024x1024_S1024x1024_1_0 k e).trans rfl)

/-- The third layer's weights as staged: the sign of `W2`, transposed. -/
theorem w2_apply (c : Dev nD) (k e : Fin 1024) :
    (V m c main_v7 : FVec Ideal S1024x1024 .bf16) (ix2 k e) = Ideal.sign ((A5 m c) (ix2 e k)) :=
  (congrFun (V_v7 m c) (ix2 k e)).trans
    ((transpose_ix2_apply (Host.sign (A5 m c)) transposes_S1024x1024_S1024x1024_1_0 k e).trans rfl)

/-- A bias or the output scale as staged: the vector as a row. -/
theorem b0_apply (c : Dev nD) (e : Fin 1024) : (V m c main_v20 : FVec Ideal S1x1024 .f32) (ix2 (0 : Fin 1) e) = (A2 m c) (ix1 e) :=
  (congrFun (V_v20 m c) _).trans (shapeCast_a_1a_apply _ _ 0 e)
theorem b1_apply (c : Dev nD) (e : Fin 1024) : (V m c main_v21 : FVec Ideal S1x1024 .f32) (ix2 (0 : Fin 1) e) = (A4 m c) (ix1 e) :=
  (congrFun (V_v21 m c) _).trans (shapeCast_a_1a_apply _ _ 0 e)
theorem b2_apply (c : Dev nD) (e : Fin 1024) : (V m c main_v22 : FVec Ideal S1x1024 .f32) (ix2 (0 : Fin 1) e) = (A6 m c) (ix1 e) :=
  (congrFun (V_v22 m c) _).trans (shapeCast_a_1a_apply _ _ 0 e)
theorem osc_apply (c : Dev nD) (e : Fin 1024) : (V m c main_v27 : FVec Ideal S1x1024 .f32) (ix2 (0 : Fin 1) e) = (A15 m c) (ix1 e) :=
  (congrFun (V_v27 m c) _).trans (shapeCast_a_1a_apply _ _ 0 e)

/-- A normalisation's scale and shift as staged. -/
theorem s0_apply (c : Dev nD) (e : Fin 1024) :
    (V m c main_v23 : FVec Ideal S1x1024 .f32) (ix2 (0 : Fin 1) e) = scale (A7 m c) (A10 m c) e :=
  (congrFun (V_v23 m c) _).trans ((shapeCast_a_1a_apply _ _ 0 e).trans rfl)
theorem sh0_apply (c : Dev nD) (e : Fin 1024) :
    (V m c main_v24 : FVec Ideal S1x1024 .f32) (ix2 (0 : Fin 1) e)
      = (A8 m c) (ix1 e) - (A9 m c) (ix1 e) * scale (A7 m c) (A10 m c) e :=
  (congrFun (V_v24 m c) _).trans ((shapeCast_a_1a_apply _ _ 0 e).trans rfl)
theorem s1_apply (c : Dev nD) (e : Fin 1024) :
    (V m c main_v25 : FVec Ideal S1x1024 .f32) (ix2 (0 : Fin 1) e) = scale (A11 m c) (A14 m c) e :=
  (congrFun (V_v25 m c) _).trans ((shapeCast_a_1a_apply _ _ 0 e).trans rfl)
theorem sh1_apply (c : Dev nD) (e : Fin 1024) :
    (V m c main_v26 : FVec Ideal S1x1024 .f32) (ix2 (0 : Fin 1) e)
      = (A12 m c) (ix1 e) - (A13 m c) (ix1 e) * scale (A11 m c) (A14 m c) e :=
  (congrFun (V_v26 m c) _).trans ((shapeCast_a_1a_apply _ _ 0 e).trans rfl)

/-! ## The windows' blocks -/

theorem hz : (![0, 0] : Fin 2 → Nat) = fun _ => 0 := funext fun a => by fin_cases a <;> rfl

/-- The input's and the output's block at point t are block row t; their block column is 0. -/
theorem idx_x : ∀ t : Fin cfg0.N, win0_0.index t (0 : Fin 2) = win0_12.index t (0 : Fin 2) ∧ win0_0.index t (1 : Fin 2) = 0
    ∧ win0_12.index t (1 : Fin 2) = 0 ∧ win0_12.index t (0 : Fin 2) < 128 :=
  (by decide +kernel : ∀ t : Fin grid0.N, win0_0.index t (0 : Fin 2) = win0_12.index t (0 : Fin 2) ∧ win0_0.index t (1 : Fin 2) = 0
    ∧ win0_12.index t (1 : Fin 2) = 0 ∧ win0_12.index t (0 : Fin 2) < 128)

/-- Every other operand's block is the whole operand, at every point. -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

/-- Every block row is some point's. -/
theorem idx_onto : ∀ q : Fin 128, ∃ t : Fin cfg0.N, win0_12.index t = ![q.val, 0] :=
  (by decide +kernel : ∀ q : Fin 128, ∃ t : Fin grid0.N, win0_12.index t = ![q.val, 0])

/-- Row p of the input block at point t is row r of `x`, r the array row of the output block's row p. -/
theorem read0 (c : Dev nD) (t : Fin cfg0.N) (p : Fin 512) (k : Fin 1024) (r : Fin 65536)
    (hr : r.val = win0_12.index t (0 : Fin 2) * 512 + p.val) : iblk m c 0 t (ix2 p k) = A0 m c (ix2 r k) := by
  obtain ⟨e0, e1, e2, e3⟩ := idx_x t
  have he : ((cfg0.win 0).blk t).view.emb (ix2 p k) = ix2 r k := funext fun a => Fin.ext (by
    match a with
    | ⟨0, _⟩ => show win0_0.index t (0 : Fin 2) * 512 + 1 * p.val = r.val; omega
    | ⟨1, _⟩ => show win0_0.index t (1 : Fin 2) * 1024 + 1 * k.val = k.val; omega)
  exact (congrArg (V m c main_arg0 : FVec Ideal S65536x1024 .f32) he).trans (congrFun (V_main_arg0 m c) _)

theorem read1 (c : Dev nD) (t : Fin cfg0.N) (k e : Fin 1024) : iblk m c 1 t (ix2 k e) = A1 m c (ix2 e k) := by
  obtain ⟨e0, e1⟩ := idx1 t
  have he : ((cfg0.win 1).blk t).view.emb (ix2 k e) = ix2 k e := funext fun a => Fin.ext (by
    match a with
    | ⟨0, _⟩ => show win0_1.index t (0 : Fin 2) * 1024 + 1 * k.val = k.val; omega
    | ⟨1, _⟩ => show win0_1.index t (1 : Fin 2) * 1024 + 1 * e.val = e.val; omega)
  exact (congrArg (V m c main_v1 : FVec Ideal S1024x1024 .bf16) he).trans (w0_apply m c k e)
theorem read2 (c : Dev nD) (t : Fin cfg0.N) (k e : Fin 1024) : iblk m c 2 t (ix2 k e) = Ideal.sign (A3 m c (ix2 e k)) := by
  obtain ⟨e0, e1⟩ := idx2 t
  have he : ((cfg0.win 2).blk t).view.emb (ix2 k e) = ix2 k e := funext fun a => Fin.ext (by
    match a with
    | ⟨0, _⟩ => show win0_2.index t (0 : Fin 2) * 1024 + 1 * k.val = k.val; omega
    | ⟨1, _⟩ => show win0_2.index t (1 : Fin 2) * 1024 + 1 * e.val = e.val; omega)
  exact (congrArg (V m c main_v4 : FVec Ideal S1024x1024 .bf16) he).trans (w1_apply m c k e)
theorem read3 (c : Dev nD) (t : Fin cfg0.N) (k e : Fin 1024) : iblk m c 3 t (ix2 k e) = Ideal.sign (A5 m c (ix2 e k)) := by
  obtain ⟨e0, e1⟩ := idx3 t
  have he : ((cfg0.win 3).blk t).view.emb (ix2 k e) = ix2 k e := funext fun a => Fin.ext (by
    match a with
    | ⟨0, _⟩ => show win0_3.index t (0 : Fin 2) * 1024 + 1 * k.val = k.val; omega
    | ⟨1, _⟩ => show win0_3.index t (1 : Fin 2) * 1024 + 1 * e.val = e.val; omega)
  exact (congrArg (V m c main_v7 : FVec Ideal S1024x1024 .bf16) he).trans (w2_apply m c k e)
theorem read4 (c : Dev nD) (t : Fin cfg0.N) (e : Fin 1024) : iblk m c 4 t (ix2 (0 : Fin 1) e) = A2 m c (ix1 e) := by
  obtain ⟨e0, e1⟩ := idx4 t
  have he : ((cfg0.win 4).blk t).view.emb (ix2 (0 : Fin 1) e) = ix2 (0 : Fin 1) e := funext fun a => Fin.ext (by
    match a with
    | ⟨0, _⟩ => show win0_4.index t (0 : Fin 2) * 1 + 1 * (0 : Fin 1).val = (0 : Fin 1).val; omega
    | ⟨1, _⟩ => show win0_4.index t (1 : Fin 2) * 1024 + 1 * e.val = e.val; omega)
  exact (congrArg (V m c main_v20 : FVec Ideal S1x1024 .f32) he).trans (b0_apply m c e)
theorem read5 (c : Dev nD) (t : Fin cfg0.N) (e : Fin 1024) : iblk m c 5 t (ix2 (0 : Fin 1) e) = A4 m c (ix1 e) := by
  obtain ⟨e0, e1⟩ := idx5 t
  have he : ((cfg0.win 5).blk t).view.emb (ix2 (0 : Fin 1) e) = ix2 (0 : Fin 1) e := funext fun a => Fin.ext (by
    match a with
    | ⟨0, _⟩ => show win0_5.index t (0 : Fin 2) * 1 + 1 * (0 : Fin 1).val = (0 : Fin 1).val; omega
    | ⟨1, _⟩ => show win0_5.index t (1 : Fin 2) * 1024 + 1 * e.val = e.val; omega)
  exact (congrArg (V m c main_v21 : FVec Ideal S1x1024 .f32) he).trans (b1_apply m c e)
theorem read6 (c : Dev nD) (t : Fin cfg0.N) (e : Fin 1024) : iblk m c 6 t (ix2 (0 : Fin 1) e) = A6 m c (ix1 e) := by
  obtain ⟨e0, e1⟩ := idx6 t
  have he : ((cfg0.win 6).blk t).view.emb (ix2 (0 : Fin 1) e) = ix2 (0 : Fin 1) e := funext fun a => Fin.ext (by
    match a with
    | ⟨0, _⟩ => show win0_6.index t (0 : Fin 2) * 1 + 1 * (0 : Fin 1).val = (0 : Fin 1).val; omega
    | ⟨1, _⟩ => show win0_6.index t (1 : Fin 2) * 1024 + 1 * e.val = e.val; omega)
  exact (congrArg (V m c main_v22 : FVec Ideal S1x1024 .f32) he).trans (b2_apply m c e)
theorem read7 (c : Dev nD) (t : Fin cfg0.N) (e : Fin 1024) : iblk m c 7 t (ix2 (0 : Fin 1) e) = scale (A7 m c) (A10 m c) e := by
  obtain ⟨e0, e1⟩ := idx7 t
  have he : ((cfg0.win 7).blk t).view.emb (ix2 (0 : Fin 1) e) = ix2 (0 : Fin 1) e := funext fun a => Fin.ext (by
    match a with
    | ⟨0, _⟩ => show win0_7.index t (0 : Fin 2) * 1 + 1 * (0 : Fin 1).val = (0 : Fin 1).val; omega
    | ⟨1, _⟩ => show win0_7.index t (1 : Fin 2) * 1024 + 1 * e.val = e.val; omega)
  exact (congrArg (V m c main_v23 : FVec Ideal S1x1024 .f32) he).trans (s0_apply m c e)
theorem read8 (c : Dev nD) (t : Fin cfg0.N) (e : Fin 1024) : iblk m c 8 t (ix2 (0 : Fin 1) e) = A8 m c (ix1 e) - A9 m c (ix1 e) * scale (A7 m c) (A10 m c) e := by
  obtain ⟨e0, e1⟩ := idx8 t
  have he : ((cfg0.win 8).blk t).view.emb (ix2 (0 : Fin 1) e) = ix2 (0 : Fin 1) e := funext fun a => Fin.ext (by
    match a with
    | ⟨0, _⟩ => show win0_8.index t (0 : Fin 2) * 1 + 1 * (0 : Fin 1).val = (0 : Fin 1).val; omega
    | ⟨1, _⟩ => show win0_8.index t (1 : Fin 2) * 1024 + 1 * e.val = e.val; omega)
  exact (congrArg (V m c main_v24 : FVec Ideal S1x1024 .f32) he).trans (sh0_apply m c e)
theorem read9 (c : Dev nD) (t : Fin cfg0.N) (e : Fin 1024) : iblk m c 9 t (ix2 (0 : Fin 1) e) = scale (A11 m c) (A14 m c) e := by
  obtain ⟨e0, e1⟩ := idx9 t
  have he : ((cfg0.win 9).blk t).view.emb (ix2 (0 : Fin 1) e) = ix2 (0 : Fin 1) e := funext fun a => Fin.ext (by
    match a with
    | ⟨0, _⟩ => show win0_9.index t (0 : Fin 2) * 1 + 1 * (0 : Fin 1).val = (0 : Fin 1).val; omega
    | ⟨1, _⟩ => show win0_9.index t (1 : Fin 2) * 1024 + 1 * e.val = e.val; omega)
  exact (congrArg (V m c main_v25 : FVec Ideal S1x1024 .f32) he).trans (s1_apply m c e)
theorem read10 (c : Dev nD) (t : Fin cfg0.N) (e : Fin 1024) : iblk m c 10 t (ix2 (0 : Fin 1) e) = A12 m c (ix1 e) - A13 m c (ix1 e) * scale (A11 m c) (A14 m c) e := by
  obtain ⟨e0, e1⟩ := idx10 t
  have he : ((cfg0.win 10).blk t).view.emb (ix2 (0 : Fin 1) e) = ix2 (0 : Fin 1) e := funext fun a => Fin.ext (by
    match a with
    | ⟨0, _⟩ => show win0_10.index t (0 : Fin 2) * 1 + 1 * (0 : Fin 1).val = (0 : Fin 1).val; omega
    | ⟨1, _⟩ => show win0_10.index t (1 : Fin 2) * 1024 + 1 * e.val = e.val; omega)
  exact (congrArg (V m c main_v26 : FVec Ideal S1x1024 .f32) he).trans (sh1_apply m c e)
theorem read11 (c : Dev nD) (t : Fin cfg0.N) (e : Fin 1024) : iblk m c 11 t (ix2 (0 : Fin 1) e) = A15 m c (ix1 e) := by
  obtain ⟨e0, e1⟩ := idx11 t
  have he : ((cfg0.win 11).blk t).view.emb (ix2 (0 : Fin 1) e) = ix2 (0 : Fin 1) e := funext fun a => Fin.ext (by
    match a with
    | ⟨0, _⟩ => show win0_11.index t (0 : Fin 2) * 1 + 1 * (0 : Fin 1).val = (0 : Fin 1).val; omega
    | ⟨1, _⟩ => show win0_11.index t (1 : Fin 2) * 1024 + 1 * e.val = e.val; omega)
  exact (congrArg (V m c main_v27 : FVec Ideal S1x1024 .f32) he).trans (osc_apply m c e)

/-! ## What a point writes back, and the array after the run -/

/-- WHAT POINT t WRITES BACK is block t of the specification of the arguments. -/
theorem flushed_eq (c : Dev nD) (t : Fin cfg0.N) :
    (dats m 0 c).flushed 12 t = ((cfg0.win 12).blk t).view.read (Elt Ideal) (G (A0 m c) (A1 m c) (A2 m c) (A3 m c) (A4 m c) (A5 m c) (A6 m c) (A7 m c) (A8 m c) (A9 m c) (A10 m c) (A11 m c) (A12 m c) (A13 m c) (A14 m c) (A15 m c)) := by
  rw [Value.flushed12]
  unfold out0_12
  rw [View.canon_unit_zero hz]
  simp only [View.ld_unit_zero (S := S512x1024) hz, View.ld_unit_zero (S := S1024x1024) hz, View.ld_unit_zero (S := S1x1024) hz]
  funext y
  obtain ⟨p, e, rfl⟩ : ∃ (p : Fin 512) (e : Fin 1024), y = ix2 p e := ⟨y 0, y 1, eq_ix2 y⟩
  obtain ⟨e0, e1, e2, e3⟩ := idx_x t
  have hi1 : (((cfg0.win 12).blk t).view.emb (ix2 p e)) 1 = e :=
    Fin.ext (by show win0_12.index t (1 : Fin 2) * 1024 + 1 * e.val = e.val; omega)
  have hi0 : ((((cfg0.win 12).blk t).view.emb (ix2 p e)) 0).val = win0_12.index t (0 : Fin 2) * 512 + p.val := by
    show win0_12.index t (0 : Fin 2) * 512 + 1 * p.val = _; omega
  have hx : ∀ k, iblk m c 0 t (ix2 p k) = A0 m c (ix2 ((((cfg0.win 12).blk t).view.emb (ix2 p e)) 0) k) :=
    fun k => read0 m c t p k _ hi0
  show k0_pay1 (k0_pay2 (iblk m c 0 t) (iblk m c 1 t) (iblk m c 4 t) (iblk m c 7 t) (iblk m c 8 t) (iblk m c 2 t) (iblk m c 5 t)
      (iblk m c 9 t)) (iblk m c 10 t) (iblk m c 3 t) (iblk m c 6 t) (iblk m c 11 t) (ix2 p e)
    = G (A0 m c) (A1 m c) (A2 m c) (A3 m c) (A4 m c) (A5 m c) (A6 m c) (A7 m c) (A8 m c) (A9 m c) (A10 m c) (A11 m c) (A12 m c) (A13 m c) (A14 m c) (A15 m c) (((cfg0.win 12).blk t).view.emb (ix2 p e))
  refine (payload_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) p e).trans ?_
  unfold G
  rw [hi1]
  simp only [hx, read1 m c t, read2 m c t, read3 m c t, read4 m c t, read5 m c t, read6 m c t, read7 m c t, read8 m c t,
    read9 m c t, read10 m c t, read11 m c t]

/-- An array index is in point t's output block iff each coordinate is in the block's range. -/
theorem mem_blk (t : Fin cfg0.N) (i : S65536x1024.Idx) :
    i ∈ ((cfg0.win 12).blk t).view.set ↔ ∀ a : Fin 2, win0_12.index t a * S512x1024.size a ≤ (i a).val
      ∧ (i a).val < win0_12.index t a * S512x1024.size a + S512x1024.size a := by
  show i ∈ ((View.whole main_v28).slice (win0_12.rect t)).set ↔ _
  rw [View.set_slice_whole, Rect.mem_set_unit]
  exact Iff.rfl

/-- The 128 output blocks tile the array: row r is in the block of the point whose block row is r / 512. -/
theorem cover (i : S65536x1024.Idx) :
    ∃ t : Fin cfg0.N, (cfg0.win 12).flush t = true ∧ i ∈ ((cfg0.win 12).blk t).view.set := by
  have hi0 : (i 0).val < 65536 := (i 0).isLt
  have hi1 : (i 1).val < 1024 := (i 1).isLt
  obtain ⟨t, ht⟩ := idx_onto ⟨(i 0).val / 512, by omega⟩
  have q0 : win0_12.index t (0 : Fin 2) = (i 0).val / 512 := congrFun ht 0
  have q1 : win0_12.index t (1 : Fin 2) = 0 := congrFun ht 1
  refine ⟨t, flush0_12 t, ?_⟩
  rw [mem_blk]
  intro a
  match a with
  | ⟨0, _⟩ => show win0_12.index t (0 : Fin 2) * 512 ≤ (i 0).val ∧ (i 0).val < win0_12.index t (0 : Fin 2) * 512 + 512; omega
  | ⟨1, _⟩ => show win0_12.index t (1 : Fin 2) * 1024 ≤ (i 1).val ∧ (i 1).val < win0_12.index t (1 : Fin 2) * 1024 + 1024; omega

/-- THE OUTPUT ARRAY after the run is the specification of the arguments. -/
theorem final (c : Dev nD) : (dats m 0 c).arrAt 12 cfg0.N = G (A0 m c) (A1 m c) (A2 m c) (A3 m c) (A4 m c) (A5 m c) (A6 m c) (A7 m c) (A8 m c) (A9 m c) (A10 m c) (A11 m c) (A12 m c) (A13 m c) (A14 m c) (A15 m c) :=
  (dats m 0 c).arrAt_eq_of_cover 12 (G (A0 m c) (A1 m c) (A2 m c) (A3 m c) (A4 m c) (A5 m c) (A6 m c) (A7 m c) (A8 m c) (A9 m c) (A10 m c) (A11 m c) (A12 m c) (A13 m c) (A14 m c) (A15 m c)) (fun t _ => flushed_eq m c t) cover

/-- THE KERNEL'S RUN: every weakly fair execution terminates with the result array at the specification of the
    arguments and the arguments unchanged. -/
theorem run : θ_run defs (onTc (τ := τ) (main (F := Ideal))) ⟨m, fun _ => 0, ρ⟩ fun r => ∀ c : Dev nD,
      r.2.mem ((c : Thread nD τ).loc main_v28) = G (A0 m c) (A1 m c) (A2 m c) (A3 m c) (A4 m c) (A5 m c) (A6 m c) (A7 m c) (A8 m c) (A9 m c) (A10 m c) (A11 m c) (A12 m c) (A13 m c) (A14 m c) (A15 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final m c), (h c).2⟩) (Value.run_blocks m ρ)

end Cert.KernelIdeal.KValue

end
-- ==== Proof.RefValue.lean ====
/-
  The reference program's result, read at an index (p, e), is `Mlp.referenceRow` of row p of the input.

  The stages are read one layer at a time. A dense layer is the host's product with the transposed weight matrix plus
  the bias row broadcast down the rows: at (p, e) that is `∑ₖ a (p, k) · W (e, k) + b e`. The normalisation is
  `(h - μ) · (γ · rsqrt (σ² + ε)) + β` with every per-channel vector broadcast down the rows. The activation is the
  straight-through sign `c + (sign h - c)`, `c` the clip of `h` to [-1, 1], which is `sign h`
  (`LibSteSign.ste_eq_sign`); the binarised weights are the same expression of the weight matrix.
-/
import proofs.«141624_j12206297055253_1_alg».proof.Proof.Gen.ReferenceIdeal.Read
import proofs.«141624_j12206297055253_1_alg».proof.Proof.Spec

noncomputable section

namespace Cert.ReferenceIdeal.RefValue

open Cert.ReferenceIdeal Cert.ReferenceIdeal.Read Idealize.ShloMosaic Idealize.ShloMosaic.ValueIdx Cert.Mlp Cert.LibSteSign

/-- An f32 array of the program at the extended reals. -/
abbrev Arr (s : Shape) : Type := (⟨s, .f32⟩ : BufTy).Contents (Elt Ideal)

/-- A rank-1 index is determined by its coordinate. -/
theorem idx1_eq {n : Nat} (f : (⟨1, ![n]⟩ : Shape).Idx) (e : Fin n) (h : (f 0).val = e.val) : f = ix1 e := by
  funext a; match a with | ⟨0, _⟩ => exact Fin.ext h

/-- A rank-2 index is determined by its two coordinates. -/
theorem idx2_eq {n0 n1 : Nat} (f : (⟨2, ![n0, n1]⟩ : Shape).Idx) (a : Fin n0) (b : Fin n1)
    (h0 : (f 0).val = a.val) (h1 : (f 1).val = b.val) : f = ix2 a b := by
  funext d; match d with | ⟨0, _⟩ => exact Fin.ext h0 | ⟨1, _⟩ => exact Fin.ext h1

/-- The first layer and its normalisation at (p, e). -/
theorem layer0_apply (x0 : Arr S65536x1024) (x1 : Arr S1024x1024) (x2 x7 x8 x9 x10 : Arr S1024) (p : Fin 65536) (e : Fin 1024) :
    val_main_v17 (F := Ideal) x0 x1 x2 x7 x8 x9 x10 (ix2 p e)
      = (dense (fun k => x0 (ix2 p k)) (fun k e => x1 (ix2 e k)) (fun e => x2 (ix1 e)) e - x9 (ix1 e))
          * (x7 (ix1 e) * Ideal.rsqrt (x10 (ix1 e) + Ideal.ofBits .f32 0x3727C5AC#32)) + x8 (ix1 e) := by
  rw [val_main_v17_apply, val_main_v14_apply, val_main_v11_apply, val_main_v4_apply, val_main_v1_apply, val_main_v3_apply,
    val_main_v2_apply, val_main_v10_apply, val_main_v9_apply, val_main_v13_apply, val_main_v12_apply, val_main_v8_apply,
    val_main_v7_apply, val_main_v6_apply, val_main_v5_apply, val_main_cst_apply, val_main_v16_apply, val_main_v15_apply]
  simp only [val_main_v0_apply]
  have i2 : idx_main_v2 (idx_main_v3 (ix2 p e)) = ix1 e := idx1_eq _ _ rfl
  have i9 : idx_main_v9 (idx_main_v10 (ix2 p e)) = ix1 e := idx1_eq _ _ rfl
  have i12 : idx_main_v12 (idx_main_v13 (ix2 p e)) = ix1 e := idx1_eq _ _ rfl
  have i15 : idx_main_v15 (idx_main_v16 (ix2 p e)) = ix1 e := idx1_eq _ _ rfl
  have il : ∀ k, lidx_main_v1 (ix2 p e) k = ix2 p k := fun k => idx2_eq _ _ _ rfl rfl
  have ir : ∀ k, idx_main_v0 (ridx_main_v1 (ix2 p e) k) = ix2 e k := fun k => idx2_eq _ _ _ rfl rfl
  simp only [i2, i9, i12, i15, il, ir, Ideal.addf_def, Ideal.mulf_def, Ideal.subf_def, Ideal.hostUnary_rsqrt_def, Ideal.ofBits_def]
  rfl

/-- The straight-through sign of the first layer is its sign. -/
theorem act0_apply (x0 : Arr S65536x1024) (x1 : Arr S1024x1024) (x2 x7 x8 x9 x10 : Arr S1024) (i : S65536x1024.Idx) :
    val_main_v21 (F := Ideal) x0 x1 x2 x7 x8 x9 x10 i = Ideal.sign (val_main_v17 (F := Ideal) x0 x1 x2 x7 x8 x9 x10 i) := by
  rw [val_main_v21_apply, val_main_v20_apply, val_main_v19_apply, val_main_v18_apply, val_main_call0_v4_apply,
    val_main_call0_v3_apply, val_main_cst_1_apply, val_main_call0_v2_apply, val_main_call0_v1_apply, val_main_call0_v0_apply,
    val_main_cst_0_apply]
  simp only [Ideal.addf_def, Ideal.subf_def, Ideal.minimumf_def, Ideal.maximumf_def, Ideal.hostUnary_sign_def, Ideal.ofBits_def,
    ofBits_one, ofBits_neg_one]
  exact ste_eq_sign _

/-- The second layer's binarised weights, transposed: at (k, e) the sign of `W1 (e, k)`. -/
theorem weights1_apply (x3 : Arr S1024x1024) (k e : Fin 1024) :
    val_main_v26 (F := Ideal) x3 (ix2 k e) = Ideal.sign (x3 (ix2 e k)) := by
  rw [val_main_v26_apply, val_main_v25_apply, val_main_v24_apply, val_main_v23_apply, val_main_v22_apply, val_main_call1_v4_apply,
    val_main_call1_v3_apply, val_main_cst_3_apply, val_main_call1_v2_apply, val_main_call1_v1_apply, val_main_call1_v0_apply,
    val_main_cst_2_apply]
  have it : idx_main_v26 (ix2 k e) = ix2 e k := idx2_eq _ _ _ rfl rfl
  simp only [it, Ideal.addf_def, Ideal.subf_def, Ideal.minimumf_def, Ideal.maximumf_def, Ideal.hostUnary_sign_def, Ideal.ofBits_def,
    ofBits_one, ofBits_neg_one]
  exact ste_eq_sign _

/-- The second layer and its normalisation at (p, e), over the first activation and the binarised weights. -/
theorem layer1_apply (x0 : Arr S65536x1024) (x1 : Arr S1024x1024) (x2 : Arr S1024) (x3 : Arr S1024x1024)
    (x4 x7 x8 x9 x10 x11 x12 x13 x14 : Arr S1024) (p : Fin 65536) (e : Fin 1024) :
    val_main_v43 (F := Ideal) x0 x1 x2 x3 x4 x7 x8 x9 x10 x11 x12 x13 x14 (ix2 p e)
      = (dense (fun k => val_main_v21 (F := Ideal) x0 x1 x2 x7 x8 x9 x10 (ix2 p k)) (fun k e => val_main_v26 (F := Ideal) x3 (ix2 k e))
            (fun e => x4 (ix1 e)) e - x13 (ix1 e))
          * (x11 (ix1 e) * Ideal.rsqrt (x14 (ix1 e) + Ideal.ofBits .f32 0x3727C5AC#32)) + x12 (ix1 e) := by
  rw [val_main_v43_apply, val_main_v40_apply, val_main_v37_apply, val_main_v30_apply, val_main_v27_apply, val_main_v29_apply,
    val_main_v28_apply, val_main_v36_apply, val_main_v35_apply, val_main_v39_apply, val_main_v38_apply, val_main_v34_apply,
    val_main_v33_apply, val_main_v32_apply, val_main_v31_apply, val_main_cst_4_apply, val_main_v42_apply, val_main_v41_apply]
  have i28 : idx_main_v28 (idx_main_v29 (ix2 p e)) = ix1 e := idx1_eq _ _ rfl
  have i35 : idx_main_v35 (idx_main_v36 (ix2 p e)) = ix1 e := idx1_eq _ _ rfl
  have i38 : idx_main_v38 (idx_main_v39 (ix2 p e)) = ix1 e := idx1_eq _ _ rfl
  have i41 : idx_main_v41 (idx_main_v42 (ix2 p e)) = ix1 e := idx1_eq _ _ rfl
  have il : ∀ k, lidx_main_v27 (ix2 p e) k = ix2 p k := fun k => idx2_eq _ _ _ rfl rfl
  have ir : ∀ k, ridx_main_v27 (ix2 p e) k = ix2 k e := fun k => idx2_eq _ _ _ rfl rfl
  simp only [i28, i35, i38, i41, il, ir, Ideal.addf_def, Ideal.mulf_def, Ideal.subf_def, Ideal.hostUnary_rsqrt_def, Ideal.ofBits_def]
  rfl

/-- The straight-through sign of the second layer is its sign. -/
theorem act1_apply (x0 : Arr S65536x1024) (x1 : Arr S1024x1024) (x2 : Arr S1024) (x3 : Arr S1024x1024)
    (x4 x7 x8 x9 x10 x11 x12 x13 x14 : Arr S1024) (i : S65536x1024.Idx) :
    val_main_v47 (F := Ideal) x0 x1 x2 x3 x4 x7 x8 x9 x10 x11 x12 x13 x14 i
      = Ideal.sign (val_main_v43 (F := Ideal) x0 x1 x2 x3 x4 x7 x8 x9 x10 x11 x12 x13 x14 i) := by
  rw [val_main_v47_apply, val_main_v46_apply, val_main_v45_apply, val_main_v44_apply, val_main_call2_v4_apply,
    val_main_call2_v3_apply, val_main_cst_6_apply, val_main_call2_v2_apply, val_main_call2_v1_apply, val_main_call2_v0_apply,
    val_main_cst_5_apply]
  simp only [Ideal.addf_def, Ideal.subf_def, Ideal.minimumf_def, Ideal.maximumf_def, Ideal.hostUnary_sign_def, Ideal.ofBits_def,
    ofBits_one, ofBits_neg_one]
  exact ste_eq_sign _

/-- The third layer's binarised weights, transposed: at (k, e) the sign of `W2 (e, k)`. -/
theorem weights2_apply (x5 : Arr S1024x1024) (k e : Fin 1024) :
    val_main_v52 (F := Ideal) x5 (ix2 k e) = Ideal.sign (x5 (ix2 e k)) := by
  rw [val_main_v52_apply, val_main_v51_apply, val_main_v50_apply, val_main_v49_apply, val_main_v48_apply, val_main_call3_v4_apply,
    val_main_call3_v3_apply, val_main_cst_8_apply, val_main_call3_v2_apply, val_main_call3_v1_apply, val_main_call3_v0_apply,
    val_main_cst_7_apply]
  have it : idx_main_v52 (ix2 k e) = ix2 e k := idx2_eq _ _ _ rfl rfl
  simp only [it, Ideal.addf_def, Ideal.subf_def, Ideal.minimumf_def, Ideal.maximumf_def, Ideal.hostUnary_sign_def, Ideal.ofBits_def,
    ofBits_one, ofBits_neg_one]
  exact ste_eq_sign _

/-- The third layer and the output scale at (p, e). -/
theorem layer2_apply (x0 : Arr S65536x1024) (x1 : Arr S1024x1024) (x2 : Arr S1024) (x3 : Arr S1024x1024) (x4 : Arr S1024)
    (x5 : Arr S1024x1024) (x6 x7 x8 x9 x10 x11 x12 x13 x14 x15 : Arr S1024) (p : Fin 65536) (e : Fin 1024) :
    val_main_v59 (F := Ideal) x0 x1 x2 x3 x4 x5 x6 x7 x8 x9 x10 x11 x12 x13 x14 x15 (ix2 p e)
      = dense (fun k => val_main_v47 (F := Ideal) x0 x1 x2 x3 x4 x7 x8 x9 x10 x11 x12 x13 x14 (ix2 p k))
          (fun k e => val_main_v52 (F := Ideal) x5 (ix2 k e)) (fun e => x6 (ix1 e)) e * x15 (ix1 e) := by
  rw [val_main_v59_apply, val_main_v56_apply, val_main_v53_apply, val_main_v55_apply, val_main_v54_apply, val_main_v58_apply,
    val_main_v57_apply]
  have i54 : idx_main_v54 (idx_main_v55 (ix2 p e)) = ix1 e := idx1_eq _ _ rfl
  have i57 : idx_main_v57 (idx_main_v58 (ix2 p e)) = ix1 e := idx1_eq _ _ rfl
  have il : ∀ k, lidx_main_v53 (ix2 p e) k = ix2 p k := fun k => idx2_eq _ _ _ rfl rfl
  have ir : ∀ k, ridx_main_v53 (ix2 p e) k = ix2 k e := fun k => idx2_eq _ _ _ rfl rfl
  simp only [i54, i57, il, ir, Ideal.addf_def, Ideal.mulf_def]
  rfl

/-- THE REFERENCE'S RESULT at (p, e): the reference's row function of row p of the input, the weight matrices read
    transposed (and binarised in the later layers), each normalisation's scale `γ · rsqrt (σ² + ε)`. -/
theorem result_apply (x0 : Arr S65536x1024) (x1 : Arr S1024x1024) (x2 : Arr S1024) (x3 : Arr S1024x1024) (x4 : Arr S1024)
    (x5 : Arr S1024x1024) (x6 x7 x8 x9 x10 x11 x12 x13 x14 x15 : Arr S1024) (p : Fin 65536) (e : Fin 1024) :
    val_main_v59 (F := Ideal) x0 x1 x2 x3 x4 x5 x6 x7 x8 x9 x10 x11 x12 x13 x14 x15 (ix2 p e)
      = referenceRow (fun k => x0 (ix2 p k)) (fun k e => x1 (ix2 e k)) (fun k e => Ideal.sign (x3 (ix2 e k)))
          (fun k e => Ideal.sign (x5 (ix2 e k))) (fun e => x2 (ix1 e)) (fun e => x4 (ix1 e)) (fun e => x6 (ix1 e))
          (fun e => x7 (ix1 e) * Ideal.rsqrt (x10 (ix1 e) + Ideal.ofBits .f32 0x3727C5AC#32)) (fun e => x9 (ix1 e)) (fun e => x8 (ix1 e))
          (fun e => x11 (ix1 e) * Ideal.rsqrt (x14 (ix1 e) + Ideal.ofBits .f32 0x3727C5AC#32)) (fun e => x13 (ix1 e)) (fun e => x12 (ix1 e))
          (fun e => x15 (ix1 e)) e := by
  rw [layer2_apply]
  simp only [act1_apply, weights2_apply, layer1_apply, act0_apply, weights1_apply, layer0_apply]
  rfl

end Cert.ReferenceIdeal.RefValue

end
-- ==== Proof.PreDecode.lean ====
/-
  The precondition, read back.

  The precondition is a conjunction of eighteen tests, each "every entry of an array passes a comparison": for each of
  the sixteen inputs `|a| < +∞` at every entry, and for the two running-variance vectors `σ² ≥ 0` at every entry.
  An extended real whose absolute value is below `+∞` is a real; a comparison `σ² ≥ 0` that holds gives `0 ≤ σ²`.
  Read here for the inputs the value proof needs finite: the input matrix, the first layer's weights and bias, the
  second layer's bias, and both normalisations' four vectors.
-/
import proofs.«141624_j12206297055253_1_alg».proof.Pre_finite_inputs
import Idealize.ShloMosaic.Lib.ReduceAll
import Idealize.ShloMosaic.Lib.ValueIdx
import Idealize.ShloMosaic.PureOps.Ideal.Laws

noncomputable section

namespace Cert.Pre_finite_inputs.Decode

open Cert.Pre_finite_inputs Idealize.ShloMosaic Idealize.ShloMosaic.ValueIdx

variable [Cert.Pre_finite_inputs.Facts]

instance : Subsingleton S_.Idx := ⟨fun a b => funext fun d => d.elim0⟩

/-- The f32 word of +∞ denotes `⊤`. -/
theorem ofBits_inf : Ideal.ofBits .f32 0x7F800000#32 = ⊤ := by simp [Ideal.ofBits, Ideal.ieee]

/-- An extended real whose absolute value is below +∞ is a real. -/
theorem real_of_abs_lt_inf (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- A comparison `x ≥ 0` that holds says `0 ≤ x`. -/
theorem nonneg_of_ge_zero (x : EReal) (h : Ideal.cmp .oge x (Ideal.ofBits .f32 0x00000000#32) = 1#1) : 0 ≤ x := by
  rw [Ideal.ofBits_zero_f32] at h
  by_contra hn
  have h0 : Ideal.cmp .oge x 0 = 0#1 := by simp [Ideal.cmp, hn]
  rw [h0] at h
  exact absurd h (by decide)

/-- "Every entry has absolute value below +∞" gives a real at every entry. -/
theorem all_finite {s : Shape} {axes : List (Fin s.rank)} (a : FVec Ideal s .f32)
    (bc : S_.BroadcastsInDim s (![] : Fin 0 → Fin s.rank)) (hr : s.ReducesTo axes S_) (hu : 0 < S_.numel)
    (h : Host.reduce IntOp.andi (cmpf .olt (Host.absf a) (broadcastInDim s ![] bc (constant S_ .f32 0x7F800000#32)))
      (constantI S_ 1 1#1) hr hu ix0 = 1#1) (i : s.Idx) : ∃ r : ℝ, a i = (r : EReal) :=
  real_of_abs_lt_inf _ (Host.reduce_andi_all _ _ hr hu ix0 h i)

/-- "Every entry is at least 0" gives `0 ≤` at every entry. -/
theorem all_nonneg {s : Shape} {axes : List (Fin s.rank)} (a : FVec Ideal s .f32)
    (bc : S_.BroadcastsInDim s (![] : Fin 0 → Fin s.rank)) (hr : s.ReducesTo axes S_) (hu : 0 < S_.numel)
    (h : Host.reduce IntOp.andi (cmpf .oge a (broadcastInDim s ![] bc (constant S_ .f32 0x00000000#32)))
      (constantI S_ 1 1#1) hr hu ix0 = 1#1) (i : s.Idx) : 0 ≤ a i :=
  nonneg_of_ge_zero _ (Host.reduce_andi_all _ _ hr hu ix0 h i)

/-- What the value proof uses of the precondition. -/
structure Finite (a0 : FVec Ideal S65536x1024 .f32) (a1 : FVec Ideal S1024x1024 .f32) (a2 : FVec Ideal S1024 .f32)
    (a3 : FVec Ideal S1024x1024 .f32) (a4 : FVec Ideal S1024 .f32) (a5 : FVec Ideal S1024x1024 .f32)
    (a6 a7 a8 a9 a10 a11 a12 a13 a14 a15 : FVec Ideal S1024 .f32) : Prop where
  x : ∀ i, ∃ r : ℝ, a0 i = (r : EReal)
  w0 : ∀ i, ∃ r : ℝ, a1 i = (r : EReal)
  b0 : ∀ i, ∃ r : ℝ, a2 i = (r : EReal)
  b1 : ∀ i, ∃ r : ℝ, a4 i = (r : EReal)
  g0 : ∀ i, ∃ r : ℝ, a7 i = (r : EReal)
  β0 : ∀ i, ∃ r : ℝ, a8 i = (r : EReal)
  μ0 : ∀ i, ∃ r : ℝ, a9 i = (r : EReal)
  v0 : ∀ i, ∃ r : ℝ, a10 i = (r : EReal)
  g1 : ∀ i, ∃ r : ℝ, a11 i = (r : EReal)
  β1 : ∀ i, ∃ r : ℝ, a12 i = (r : EReal)
  μ1 : ∀ i, ∃ r : ℝ, a13 i = (r : EReal)
  v1 : ∀ i, ∃ r : ℝ, a14 i = (r : EReal)
  v0_nonneg : ∀ i, 0 ≤ a10 i
  v1_nonneg : ∀ i, 0 ≤ a14 i

/-- THE PRECONDITION DECODED: the eighteen conjuncts taken apart, last first. -/
theorem finite_of_pre (a0 : FVec Ideal S65536x1024 .f32) (a1 : FVec Ideal S1024x1024 .f32) (a2 : FVec Ideal S1024 .f32)
    (a3 : FVec Ideal S1024x1024 .f32) (a4 : FVec Ideal S1024 .f32) (a5 : FVec Ideal S1024x1024 .f32)
    (a6 a7 a8 a9 a10 a11 a12 a13 a14 a15 : FVec Ideal S1024 .f32)
    (h : fn (F := Ideal) a0 a1 a2 a3 a4 a5 a6 a7 a8 a9 a10 a11 a12 a13 a14 a15 = fun _ => 1#1) :
    Finite a0 a1 a2 a3 a4 a5 a6 a7 a8 a9 a10 a11 a12 a13 a14 a15 := by
  have h := congrFun h ix0
  dsimp only [fn, fn_part1, fn_part2, fn_part3, fn_part4, fn_part5] at h
  obtain ⟨h, p17⟩ := IntOp.andi_eq_one.1 h
  obtain ⟨h, p16⟩ := IntOp.andi_eq_one.1 h
  obtain ⟨h, p15⟩ := IntOp.andi_eq_one.1 h
  obtain ⟨h, p14⟩ := IntOp.andi_eq_one.1 h
  obtain ⟨h, p13⟩ := IntOp.andi_eq_one.1 h
  obtain ⟨h, p12⟩ := IntOp.andi_eq_one.1 h
  obtain ⟨h, p11⟩ := IntOp.andi_eq_one.1 h
  obtain ⟨h, p10⟩ := IntOp.andi_eq_one.1 h
  obtain ⟨h, p9⟩ := IntOp.andi_eq_one.1 h
  obtain ⟨h, p8⟩ := IntOp.andi_eq_one.1 h
  obtain ⟨h, p7⟩ := IntOp.andi_eq_one.1 h
  obtain ⟨h, p6⟩ := IntOp.andi_eq_one.1 h
  obtain ⟨h, p5⟩ := IntOp.andi_eq_one.1 h
  obtain ⟨h, p4⟩ := IntOp.andi_eq_one.1 h
  obtain ⟨h, p3⟩ := IntOp.andi_eq_one.1 h
  obtain ⟨h, p2⟩ := IntOp.andi_eq_one.1 h
  obtain ⟨p0, p1⟩ := IntOp.andi_eq_one.1 h
  exact
    { x := all_finite a0 _ _ _ p0
      w0 := all_finite a1 _ _ _ p1
      b0 := all_finite a2 _ _ _ p2
      b1 := all_finite a4 _ _ _ p4
      g0 := all_finite a7 _ _ _ p7
      β0 := all_finite a8 _ _ _ p8
      μ0 := all_finite a9 _ _ _ p9
      v0 := all_finite a10 _ _ _ p10
      g1 := all_finite a11 _ _ _ p11
      β1 := all_finite a12 _ _ _ p12
      μ1 := all_finite a13 _ _ _ p13
      v1 := all_finite a14 _ _ _ p14
      v0_nonneg := all_nonneg a10 _ _ _ p16
      v1_nonneg := all_nonneg a14 _ _ _ p17 }

end Cert.Pre_finite_inputs.Decode

end
-- ==== Proof.RefIsSpec.lean ====
/-
  Under the precondition the reference's result array is the specification `Mlp.G` of its arguments.

  At (p, e) the reference computes `Mlp.referenceRow` (RefValue); the specification is `Mlp.kernelRow` with each
  normalisation folded into a scale and a shift. The two agree when the data of both affine maps are finite
  (`Mlp.referenceRow_eq_kernelRow`): the inputs are finite by the precondition, a sign is always finite, and a scale
  `γ · rsqrt (σ² + ε)` is finite because the precondition also says `σ² ≥ 0`.
-/
import proofs.«141624_j12206297055253_1_alg».proof.Proof.RefValue
import proofs.«141624_j12206297055253_1_alg».proof.Proof.PreDecode

noncomputable section

namespace Cert.ReferenceIdeal.RefValue

open Cert.ReferenceIdeal Cert.ReferenceIdeal.Read Idealize.ShloMosaic Idealize.ShloMosaic.ValueIdx Cert.Mlp Cert.LibSteSign

/-- The reference's result is the specification, given what the precondition says of the arguments. -/
theorem result_eq_spec (x0 : Arr S65536x1024) (x1 : Arr S1024x1024) (x2 : Arr S1024) (x3 : Arr S1024x1024) (x4 : Arr S1024)
    (x5 : Arr S1024x1024) (x6 x7 x8 x9 x10 x11 x12 x13 x14 x15 : Arr S1024)
    (hf : Cert.Pre_finite_inputs.Decode.Finite x0 x1 x2 x3 x4 x5 x6 x7 x8 x9 x10 x11 x12 x13 x14 x15) :
    val_main_v59 (F := Ideal) x0 x1 x2 x3 x4 x5 x6 x7 x8 x9 x10 x11 x12 x13 x14 x15
      = G x0 x1 x2 x3 x4 x5 x6 x7 x8 x9 x10 x11 x12 x13 x14 x15 := by
  funext i
  obtain ⟨p, e, rfl⟩ : ∃ (p : Fin 65536) (e : Fin 1024), i = ix2 p e := ⟨i 0, i 1, eq_ix2 i⟩
  rw [result_apply]
  have hs0 : ∀ e, ∃ r : ℝ, scale x7 x10 e = (r : EReal) := fun e => scale_eq_coe x7 x10 e (hf.g0 _) (hf.v0 _) (hf.v0_nonneg _)
  have hs1 : ∀ e, ∃ r : ℝ, scale x11 x14 e = (r : EReal) := fun e => scale_eq_coe x11 x14 e (hf.g1 _) (hf.v1 _) (hf.v1_nonneg _)
  exact congrFun (referenceRow_eq_kernelRow (fun k => x0 (ix2 p k)) (fun k e => x1 (ix2 e k)) (fun k e => Ideal.sign (x3 (ix2 e k)))
    (fun k e => Ideal.sign (x5 (ix2 e k))) (fun e => x2 (ix1 e)) (fun e => x4 (ix1 e)) (fun e => x6 (ix1 e))
    (scale x7 x10) (fun e => x9 (ix1 e)) (fun e => x8 (ix1 e)) (scale x11 x14) (fun e => x13 (ix1 e)) (fun e => x12 (ix1 e))
    (fun e => x15 (ix1 e))
    (fun k => hf.x _) (fun k e => hf.w0 _) (fun e => hf.b0 _) hs0 (fun e => hf.μ0 _) (fun e => hf.β0 _)
    (fun k e => sign_eq_coe _) (fun e => hf.b1 _) hs1 (fun e => hf.μ1 _) (fun e => hf.β1 _)) e

end Cert.ReferenceIdeal.RefValue

end
-- ==== Proof.lean ====
/-
  A three-layer perceptron with sign activations, as one fused kernel over 128 row blocks, against its plain reference.

  Both programs compute, for every row `x_p` of a 65536 × 1024 input, three dense layers
  `a ↦ (∑ₖ a k · w k e) + b e` with weights `W0ᵀ`, `(sign W1)ᵀ`, `(sign W2)ᵀ`; after the first and the second layer a
  per-channel normalisation followed by the sign, after the third a per-channel scale. They differ in three places,
  none of which changes a value on the extended reals under the precondition:
  * the kernel rounds the matrix operands to bf16 — a change of format is the identity there;
  * the reference's activation and weight binarisation is the straight-through form `c + (sign h - c)`, `c` the clip of
    `h` to [-1, 1], which is `sign h` because `c` is finite; the kernel's sign is "±1 by the test `h < 0` where
    `|h| > 0`, else `h`", which is `sign h` too (the two rewrites of the sign-bit idiom recorded by the idealisation
    are its `preserves` conjuncts);
  * the reference normalises as `(h - μ) · s + β`, the kernel as `h · s + (β - μ · s)`, with `s = γ · rsqrt (σ² + ε)`
    computed by the host in both. These agree when `h, μ, s, β` are finite, and differ otherwise (`s = +∞` gives `+∞` on
    one side and `-∞` on the other): the precondition says every input is finite AND both running variances are `≥ 0`,
    so that `σ² + ε > 0` and `s` is finite.
  The specification is `Mlp.G` (Spec). The kernel's run ends with the result array at `G` of the arguments
  (KernelPayload: the body at an index; KernelBlocks: the host-made operands, the blocks, the cover); the reference's
  run ends at the same `G` (RefValue: its stages at an index; PreDecode: the precondition read back; RefIsSpec).
-/
import proofs.«141624_j12206297055253_1_alg».proof.Defs
import proofs.«141624_j12206297055253_1_alg».proof.Proof.Gen.Kernel
import proofs.«141624_j12206297055253_1_alg».proof.Proof.Gen.Kernel.Skeleton
import proofs.«141624_j12206297055253_1_alg».proof.Proof.Gen.Kernel.Launch
import proofs.«141624_j12206297055253_1_alg».proof.Proof.Gen.Kernel.Points
import proofs.«141624_j12206297055253_1_alg».proof.Proof.Gen.Kernel.Frame
import proofs.«141624_j12206297055253_1_alg».proof.Proof.Gen.KernelIdeal
import proofs.«141624_j12206297055253_1_alg».proof.Proof.Gen.KernelIdeal.Skeleton
import proofs.«141624_j12206297055253_1_alg».proof.Proof.Gen.KernelIdeal.Launch
import proofs.«141624_j12206297055253_1_alg».proof.Proof.Gen.KernelIdeal.Points
import proofs.«141624_j12206297055253_1_alg».proof.Proof.Gen.KernelIdeal.Frame
import proofs.«141624_j12206297055253_1_alg».proof.Proof.Gen.ReferenceIdeal
import proofs.«141624_j12206297055253_1_alg».proof.Proof.Gen.Pre_finite_inputs
import proofs.«141624_j12206297055253_1_alg».proof.Proof.Gen.KernelIdeal.Value
import proofs.«141624_j12206297055253_1_alg».proof.Proof.Gen.ReferenceIdeal.Run
import proofs.«141624_j12206297055253_1_alg».proof.Proof.Gen.ReferenceIdeal.Read
import proofs.«141624_j12206297055253_1_alg».proof.Proof.KernelBlocks
import proofs.«141624_j12206297055253_1_alg».proof.Proof.RefIsSpec
import Idealize.ShloMosaic.Adequacy
import Idealize.ShloMosaic.Init

noncomputable section

namespace Cert.Proof

open Idealize.ShloMosaic Idealize.SL.Sem Cert.Kernel

/-- The kernel as printed runs and keeps its arguments. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two places where the idealisation replaced "1.0 carrying the sign bit" by a comparison with zero. -/
theorem preserves : Cert.preserves_Kernel_KernelIdeal :=
  ⟨IdealRules.sign_bit.statement _ _, IdealRules.sign_bit.statement _ _⟩

/-- Both runs end with the result array at the specification of the (agreeing) arguments. -/
theorem algebraic : Cert.algebraic_KernelIdeal_ReferenceIdeal := by
  intro m ρ m' ρ' hpre hagree
  refine ⟨fun c => Cert.Mlp.G (Cert.KernelIdeal.KValue.A0 m c) (Cert.KernelIdeal.KValue.A1 m c) (Cert.KernelIdeal.KValue.A2 m c) (Cert.KernelIdeal.KValue.A3 m c) (Cert.KernelIdeal.KValue.A4 m c) (Cert.KernelIdeal.KValue.A5 m c) (Cert.KernelIdeal.KValue.A6 m c) (Cert.KernelIdeal.KValue.A7 m c) (Cert.KernelIdeal.KValue.A8 m c) (Cert.KernelIdeal.KValue.A9 m c) (Cert.KernelIdeal.KValue.A10 m c) (Cert.KernelIdeal.KValue.A11 m c) (Cert.KernelIdeal.KValue.A12 m c) (Cert.KernelIdeal.KValue.A13 m c) (Cert.KernelIdeal.KValue.A14 m c) (Cert.KernelIdeal.KValue.A15 m c), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq]
  obtain ⟨h0, h1, h2, h3, h4, h5, h6, h7, h8, h9, h10, h11, h12, h13, h14, h15⟩ := hagree c
  rw [h0, h1, h2, h3, h4, h5, h6, h7, h8, h9, h10, h11, h12, h13, h14, h15]
  exact Cert.ReferenceIdeal.RefValue.result_eq_spec _ _ _ _ _ _ _ _ _ _ _ _ _ _ _ _
    (Cert.Pre_finite_inputs.Decode.finite_of_pre _ _ _ _ _ _ _ _ _ _ _ _ _ _ _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
